-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S8x2048x512 : Shape := ⟨3, ![8, 2048, 512]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_

variable [Facts]

def fn {F : FTy → Type} [FloatOps F] (main_arg0 : FVec F S8x512x256 .f32) (main_arg1 : FVec F S8x2048x512 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x512x256 : Shape := ⟨3, ![8, 512, 256]⟩
abbrev S8x2048x512 : Shape := ⟨3, ![8, 2048, 512]⟩
abbrev S8x2048x256 : Shape := ⟨3, ![8, 2048, 256]⟩
abbrev S2x2048x512 : Shape := ⟨3, ![2, 2048, 512]⟩
abbrev S2x512x256 : Shape := ⟨3, ![2, 512, 256]⟩
abbrev S2x2048x256 : Shape := ⟨3, ![2, 2048, 256]⟩
abbrev S1x2048x512 : Shape := ⟨3, ![1, 2048, 512]⟩
abbrev S2048x512 : Shape := ⟨2, ![2048, 512]⟩
abbrev S1x512x256 : Shape := ⟨3, ![1, 512, 256]⟩
abbrev S512x256 : Shape := ⟨2, ![512, 256]⟩
abbrev S2048x256 : Shape := ⟨2, ![2048, 256]⟩
abbrev S1x2048x256 : Shape := ⟨3, ![1, 2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x512x256, .f32⟩
  | .hbm, ⟨1, _⟩ => ⟨S8x2048x512, .f32⟩
  | .hbm, ⟨2, _⟩ => ⟨S8x2048x256, .f32⟩
  | .local _ .vmem, ⟨0, _⟩ => ⟨S2x2048x512, .f32⟩
  | .local _ .vmem, ⟨1, _⟩ => ⟨S2x2048x512, .f32⟩
  | .local _ .vmem, ⟨2, _⟩ => ⟨S2x512x256, .f32⟩
  | .local _ .vmem, ⟨3, _⟩ => ⟨S2x512x256, .f32⟩
  | .local _ .vmem, ⟨4, _⟩ => ⟨S2x2048x256, .f32⟩
  | .local _ .vmem, ⟨5, _⟩ => ⟨S2x2048x256, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  bitsLt_bf16_f32 : FTy.bits .bf16 < FTy.bits .f32
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  inb_S2x2048x256_S1x2048x256_0_0_0 : ∀ a, (![0, 0, 0] : Fin 3 → Nat) a + S1x2048x256.size a ≤ S2x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S2x2048x512_S1x2048x512_1_0_0 : ∀ a, (![1, 0, 0] : Fin 3 → Nat) a + S1x2048x512.size a ≤ S2x2048x512.size a
  inb_S2x512x256_S1x512x256_1_0_0 : ∀ a, (![1, 0, 0] : Fin 3 → Nat) a + S1x512x256.size a ≤ S2x512x256.size a
  inb_S2x2048x256_S1x2048x256_1_0_0 : ∀ a, (![1, 0, 0] : Fin 3 → Nat) a + S1x2048x256.size a ≤ S2x2048x256.size a
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x512.size a ≤ S8x2048x512.size a
  hwx0_0 : ∀ i : grid0.Coords, EltTy.bits .f32 = 32 ∨ (Rect.block (s := S8x2048x512) S2x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x256.size a ≤ S8x512x256.size a
  hwx0_1 : ∀ i : grid0.Coords, EltTy.bits .f32 = 32 ∨ (Rect.block (s := S8x512x256) S2x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048x256.size a ≤ S8x2048x256.size a
  hwx0_2 : ∀ i : grid0.Coords, EltTy.bits .f32 = 32 ∨ (Rect.block (s := S8x2048x256) S2x2048x256.size (cc0_transform_2 i) (hinb0_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg1) S2x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x256 : Shape := ⟨3, ![8, 512, 256]⟩
abbrev S8x2048x512 : Shape := ⟨3, ![8, 2048, 512]⟩
abbrev S8x2048x256 : Shape := ⟨3, ![8, 2048, 256]⟩

abbrev nBuf : Space → Nat
  | .hbm => 3
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S8x2048x512, .f32⟩
  | .hbm, ⟨2, _⟩ => ⟨S8x2048x256, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x512_S8x512x256_S8x2048x256_2_1_1_2_0_0_wf : DotDims.WF S8x2048x512 S8x512x256 S8x2048x256 [2] [1] [1] [2] [0] [0]

variable [Facts₀]

def dot_S8x2048x512_S8x512x256_S8x2048x256_2_1_1_2_0_0 : DotDims S8x2048x512 S8x512x256 S8x2048x256 where
  lhsContracting := [2]
  rhsContracting := [1]
  lhsNonContracting := [1]
  rhsNonContracting := [2]
  lhsBatch := [0]
  rhsBatch := [0]
  wf := dot_S8x2048x512_S8x512x256_S8x2048x256_2_1_1_2_0_0_wf

class Facts : Prop extends Facts₀ where

variable [Facts]
-- ==== Proof.BatchedProduct.lean ====
/-
  The batched matrix product on the extended reals.

  For a batch of `B` pairs of matrices, `A b` of `R × K` entries and `H b` of `K × C` entries, the product is the array
  `out (b, r, c) = ∑ k, A (b, r, k) * H (b, k, c)`. On the extended reals nothing is rounded, and the sum is a sum over the
  finite type of the contraction coordinates, so it has no order of its own. The one law used of it here: a stretch of
  consecutive batch entries of the product is the product of the same stretch of the two operands.
-/
import Idealize.ShloMosaic.PureOps.Ideal
import Idealize.ShloMosaic.Lib.ValueIdx

noncomputable section

open scoped BigOperators

namespace Cert.BatchedProduct

open Idealize.ShloMosaic Idealize.ShloMosaic.ValueIdx

/-- Entry `(b, r, c)` of the batched product: row `r` of `A b` against column `c` of `H b`. -/
def entry {B R K C : Nat} (A : (⟨3, ![B, R, K]⟩ : Shape).Idx → EReal) (H : (⟨3, ![B, K, C]⟩ : Shape).Idx → EReal)
    (b : Fin B) (r : Fin R) (c : Fin C) : EReal :=
  ∑ k : Fin K, A (ix3 b r k) * H (ix3 b k c)

/-- The batched product as one array of `B × R × C` entries. -/
def bmm {B R K C : Nat} (A : (⟨3, ![B, R, K]⟩ : Shape).Idx → EReal) (H : (⟨3, ![B, K, C]⟩ : Shape).Idx → EReal) :
    (⟨3, ![B, R, C]⟩ : Shape).Idx → EReal :=
  fun i => entry A H (i 0) (i 1) (i 2)

/-- The array at an index given by its coordinates. -/
theorem bmm_ix3 {B R K C : Nat} (A : (⟨3, ![B, R, K]⟩ : Shape).Idx → EReal) (H : (⟨3, ![B, K, C]⟩ : Shape).Idx → EReal)
    (b : Fin B) (r : Fin R) (c : Fin C) : bmm A H (ix3 b r c) = entry A H b r c := rfl

/-- A STRETCH OF THE BATCH: if `A'` and `H'` hold the batch entries `o, o + 1, …` of `A` and `H`, then entry `b'` of their
    product is entry `o + b'` of the product of `A` and `H`: a product in the batch reads no other batch entry. -/
theorem entry_of_stretch {B B' R K C : Nat} (A : (⟨3, ![B, R, K]⟩ : Shape).Idx → EReal) (H : (⟨3, ![B, K, C]⟩ : Shape).Idx → EReal)
    (A' : (⟨3, ![B', R, K]⟩ : Shape).Idx → EReal) (H' : (⟨3, ![B', K, C]⟩ : Shape).Idx → EReal) (b' : Fin B') (b : Fin B)
    (hA : ∀ (r : Fin R) (k : Fin K), A' (ix3 b' r k) = A (ix3 b r k))
    (hH : ∀ (k : Fin K) (c : Fin C), H' (ix3 b' k c) = H (ix3 b k c)) (r : Fin R) (c : Fin C) :
    entry A' H' b' r c = entry A H b r c := by
  unfold entry
  exact Finset.sum_congr rfl fun k _ => by rw [hA r k, hH k c]

end Cert.BatchedProduct

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibUnitBatchDot.lean ====
/-
  One matrix product of a batch, as a kernel body computes it on a block with a leading unit axis.

  A `[1, R, K]` array viewed as `[R, K]` reads `(0, p, k)` at `(p, k)`; an `[R, C]` array stored as `[1, R, C]` reads
  `(p, q)` at `(u, p, q)`. So the plain product, into a zero accumulator, of a `[1, R, K]` block and a `[1, K, C]` block
  viewed as matrices (each first narrowed to another float format, which on the extended reals changes nothing), stored
  back as a `[1, R, C]` block, is at `(u, p, q)` the sum over `k` of `lhs (0, p, k) * rhs (0, k, q)`.
-/
import Idealize.ShloMosaic.Lib.Pipeline.Value
import Idealize.ShloMosaic.Lib.ValueIdx
import proofs.«148634_g20229295964416_cont_8to1_1184_10_alg».proof.Proof.LibPlainDot

noncomputable section

open scoped BigOperators

namespace Cert.LibUnitBatchDot

open Idealize.ShloMosaic Idealize.ShloMosaic.ValueIdx Cert.LibPlainDot

/-- A `[1, R, K]` array viewed as `[R, K]`, at `(p, k)`: the array at `(0, p, k)`. -/
theorem dropUnit_ix2 {α : Type} {R K : Nat} (v : (⟨3, ![1, R, K]⟩ : Shape).Idx → α)
    (h : (⟨3, ![1, R, K]⟩ : Shape).ShapeCasts ⟨2, ![R, K]⟩) (p : Fin R) (k : Fin K) :
    shapeCast ⟨2, ![R, K]⟩ v h (ix2 p k) = v (ix3 (0 : Fin 1) p k) := by
  refine (shapeCast_dropUnit_apply ![R, K] v h (ix2 p k)).trans (congrArg v ?_)
  funext a
  match a with
  | ⟨0, _⟩ => rfl
  | ⟨1, _⟩ => rfl
  | ⟨2, _⟩ => rfl

/-- An `[R, C]` array stored as `[1, R, C]`, at `(u, p, q)`: the array at `(p, q)`. -/
theorem addUnit_ix3 {α : Type} {R C : Nat} (w : (⟨2, ![R, C]⟩ : Shape).Idx → α)
    (h : (⟨2, ![R, C]⟩ : Shape).ShapeCasts ⟨3, ![1, R, C]⟩) (u : Fin 1) (p : Fin R) (q : Fin C) :
    shapeCast ⟨3, ![1, R, C]⟩ w h (ix3 u p q) = w (ix2 p q) := by
  refine (shapeCast_addUnit_apply ![R, C] w h (ix3 u p q)).trans (congrArg w ?_)
  funext a
  match a with
  | ⟨0, _⟩ => rfl
  | ⟨1, _⟩ => rfl

/-- THE PRODUCT OF ONE BATCH ENTRY, block to block: at `(u, p, q)` the sum over `k` of `lhs (0, p, k) * rhs (0, k, q)`. -/
theorem unitBatch_matmul_apply {R K C : Nat} {ψ₁ ψ₂ : FTy}
    (wf : DotDims.WF ⟨2, ![R, K]⟩ ⟨2, ![K, C]⟩ ⟨2, ![R, C]⟩ [1] [0] [0] [1] [] [])
    (hl : (⟨3, ![1, R, K]⟩ : Shape).ShapeCasts ⟨2, ![R, K]⟩) (hr : (⟨3, ![1, K, C]⟩ : Shape).ShapeCasts ⟨2, ![K, C]⟩)
    (ho : (⟨2, ![R, C]⟩ : Shape).ShapeCasts ⟨3, ![1, R, C]⟩) (h₁ : ψ₁.bits < FTy.f32.bits) (h₂ : ψ₂.bits < FTy.f32.bits)
    (prec : Option ContractPrecision)
    (lhs : FVec Ideal ⟨3, ![1, R, K]⟩ .f32) (rhs : FVec Ideal ⟨3, ![1, K, C]⟩ .f32) (u : Fin 1) (p : Fin R) (q : Fin C) :
    shapeCast ⟨3, ![1, R, C]⟩
        (FloatOps.matmul (plainDot R K C wf) prec (truncf ψ₁ (shapeCast ⟨2, ![R, K]⟩ lhs hl) h₁)
          (truncf ψ₂ (shapeCast ⟨2, ![K, C]⟩ rhs hr) h₂) (constant ⟨2, ![R, C]⟩ .f32 0x00000000#32)) ho (ix3 u p q)
      = ∑ k : Fin K, lhs (ix3 (0 : Fin 1) p k) * rhs (ix3 (0 : Fin 1) k q) := by
  refine (addUnit_ix3 _ ho u p q).trans ?_
  refine (matmul_zero_apply wf prec _ _ p q).trans ?_
  refine Finset.sum_congr rfl fun k _ => ?_
  rw [truncf_apply, truncf_apply, dropUnit_ix2, dropUnit_ix2]

end Cert.LibUnitBatchDot

end
-- ==== Proof.Body.lean ====
/-
  What the kernel body leaves in its output block.

  At a grid point the body holds two batch entries of each operand, a `[2, 2048, 512]` block `x0` of `alignment` and a
  `[2, 512, 256]` block `x1` of `h_text`. For each of the two entries it multiplies the `2048 × 512` matrix by the
  `512 × 256` one (narrowed to bf16 first, which on the extended reals changes nothing) into a zero accumulator and stores
  the result as that entry of the `[2, 2048, 256]` output block. The two stores tile the output block, and each holds the
  entries of the batched product of `x0` and `x1` under it: the block the body leaves is the batched product of its two
  input blocks.
-/
import proofs.«148634_g20229295964416_cont_8to1_1184_10_alg».proof.Proof.Gen.KernelIdeal.Frame
import proofs.«148634_g20229295964416_cont_8to1_1184_10_alg».proof.Proof.BatchedProduct
import proofs.«148634_g20229295964416_cont_8to1_1184_10_alg».proof.Proof.LibUnitBatchDot

noncomputable section

open scoped BigOperators

namespace Cert.KernelIdeal.Product

open Cert.KernelIdeal Cert.KernelIdeal.Gen Idealize.ShloMosaic Idealize.ShloMosaic.ValueIdx
open Cert.BatchedProduct Cert.LibUnitBatchDot

/-- The first product of the body at `(u, p, q)`: row `p` of its left block against column `q` of its right block. -/
theorem pay1_apply (v0 : Vec Ideal S1x2048x512 .f32) (v3 : Vec Ideal S1x512x256 .f32) (u : Fin 1) (p : Fin 2048) (q : Fin 256) :
    k0_pay1 (F := Ideal) v0 v3 (ix3 u p q) = ∑ k : Fin 512, v0 (ix3 (0 : Fin 1) p k) * v3 (ix3 (0 : Fin 1) k q) :=
  unitBatch_matmul_apply (R := 2048) (K := 512) (C := 256) dot_S2048x512_S512x256_S2048x256_1_0_0_1_n_n_wf
    shapeCasts_S1x2048x512_S2048x512 shapeCasts_S1x512x256_S512x256 shapeCasts_S2048x256_S1x2048x256
    bitsLt_bf16_f32 bitsLt_bf16_f32 none v0 v3 u p q

/-- The second product of the body likewise. -/
theorem pay2_apply (v10 : Vec Ideal S1x2048x512 .f32) (v13 : Vec Ideal S1x512x256 .f32) (u : Fin 1) (p : Fin 2048) (q : Fin 256) :
    k0_pay2 (F := Ideal) v10 v13 (ix3 u p q) = ∑ k : Fin 512, v10 (ix3 (0 : Fin 1) p k) * v13 (ix3 (0 : Fin 1) k q) :=
  unitBatch_matmul_apply (R := 2048) (K := 512) (C := 256) dot_S2048x512_S512x256_S2048x256_1_0_0_1_n_n_wf
    shapeCasts_S1x2048x512_S2048x512 shapeCasts_S1x512x256_S512x256 shapeCasts_S2048x256_S1x2048x256
    bitsLt_bf16_f32 bitsLt_bf16_f32 none v10 v13 u p q

/-- The rectangle of batch entry `e` of a `[2, R, C]` block places `(u, p, q)` at `(e, p, q)`. -/
theorem emb_entry {R C : Nat} (e : Nat) (he : e < 2)
    (inb : ∀ a, (![e, 0, 0] : Fin 3 → Nat) a + (⟨3, ![1, R, C]⟩ : Shape).size a ≤ (⟨3, ![2, R, C]⟩ : Shape).size a)
    (u : Fin 1) (p : Fin R) (q : Fin C) :
    (Rect.unit (s := ⟨3, ![2, R, C]⟩) ![e, 0, 0] (⟨3, ![1, R, C]⟩ : Shape).size inb).emb (ix3 u p q) = ix3 (⟨e, he⟩ : Fin 2) p q := by
  funext a
  refine Fin.ext ?_
  rw [Rect.emb_apply, Rect.off_unit, Rect.stride_unit]
  have hu : u.val = 0 := by omega
  match a with
  | ⟨0, _⟩ => show e + 1 * u.val = e; omega
  | ⟨1, _⟩ => show 0 + 1 * p.val = p.val; omega
  | ⟨2, _⟩ => show 0 + 1 * q.val = q.val; omega

/-- THE BLOCK THE BODY LEAVES: the batched product of its two input blocks. -/
theorem out_eq_bmm (x0 : Vec Ideal S2x2048x512 .f32) (x1 : Vec Ideal S2x512x256 .f32) :
    out0_2 (F := Ideal) x0 x1 = bmm (B := 2) (R := 2048) (K := 512) (C := 256) x0 x1 := by
  funext y
  unfold out0_2
  refine View.canon_apply_of_pieces (Val := Elt Ideal) (S := S2x2048x256) (e := .f32)
    (bmm (B := 2) (R := 2048) (K := 512) (C := 256) x0 x1) _ ?_ y (cover0_2 _ _ y)
  intro pc hpc x
  rcases List.mem_cons.mp hpc with rfl | hpc
  · -- the second store: batch entry 1
    obtain ⟨u, p, q, rfl⟩ : ∃ (u : Fin 1) (p : Fin 2048) (q : Fin 256), x = ix3 u p q := ⟨x 0, x 1, x 2, eq_ix3 x⟩
    show k0_pay2 (F := Ideal) (View.ld x0 r0_3) (View.ld x1 r0_4) (ix3 u p q) = bmm x0 x1 (r0_5.emb (ix3 u p q))
    rw [pay2_apply, emb_entry 1 (by decide) _ u p q, bmm_ix3]
    unfold entry
    refine Finset.sum_congr rfl fun k _ => ?_
    show x0 (r0_3.emb (ix3 (0 : Fin 1) p k)) * x1 (r0_4.emb (ix3 (0 : Fin 1) k q)) = _
    rw [emb_entry 1 (by decide) _ 0 p k, emb_entry 1 (by decide) _ 0 k q]
  · obtain rfl : pc = ⟨r0_2, k0_pay1 (View.ld x0 r0_0) (View.ld x1 r0_1)⟩ := List.mem_singleton.mp hpc
    -- the first store: batch entry 0
    obtain ⟨u, p, q, rfl⟩ : ∃ (u : Fin 1) (p : Fin 2048) (q : Fin 256), x = ix3 u p q := ⟨x 0, x 1, x 2, eq_ix3 x⟩
    show k0_pay1 (F := Ideal) (View.ld x0 r0_0) (View.ld x1 r0_1) (ix3 u p q) = bmm x0 x1 (r0_2.emb (ix3 u p q))
    rw [pay1_apply, emb_entry 0 (by decide) _ u p q, bmm_ix3]
    unfold entry
    refine Finset.sum_congr rfl fun k _ => ?_
    show x0 (r0_0.emb (ix3 (0 : Fin 1) p k)) * x1 (r0_1.emb (ix3 (0 : Fin 1) k q)) = _
    rw [emb_entry 0 (by decide) _ 0 p k, emb_entry 0 (by decide) _ 0 k q]

end Cert.KernelIdeal.Product

end
-- ==== Proof.Blocks.lean ====
/-
  From the blocks to the whole result array.

  The grid has four points; point `t` stages batch entries `2t` and `2t + 1` of `alignment` and of `h_text` and writes back
  batch entries `2t` and `2t + 1` of the result, all three windows whole along the other two axes. What the body leaves is
  the batched product of its two input blocks; a product in the batch reads no other batch entry, so that is the same
  stretch of the batched product of the whole arrays. Every batch entry `b` of the result lies in the block of point
  `b / 2`, so after the run the result array is the batched product of the two argument arrays.
-/
import proofs.«148634_g20229295964416_cont_8to1_1184_10_alg».proof.Proof.Gen.KernelIdeal.Value
import proofs.«148634_g20229295964416_cont_8to1_1184_10_alg».proof.Proof.Body

noncomputable section

open scoped BigOperators

namespace Cert.KernelIdeal.Product

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.BatchedProduct

variable (m : (ℓ : Loc nD τ sig) → Buf (Elt Ideal) ℓ) (ρ : Dev nD → PrngReg)

/-- The three index maps over the grid: all three windows move together along the batch axis and stay at block 0 of the
    other two axes, and the batch block index stays below 4. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) < 4 :=
  (by decide +kernel : ∀ t : Fin grid0.N, _)

/-- Every pair of batch entries is some point's. -/
theorem idx_onto : ∀ q0 : Fin 4, ∃ t : Fin cfg0.N, win0_2.index t = ![q0.val, 0, 0] :=
  (by decide +kernel : ∀ q0 : Fin 4, ∃ t : Fin grid0.N, win0_2.index t = ![q0.val, 0, 0])

/-- The block of `alignment` at point `t`: batch entry `b'` of the block is batch entry `2 · (block index) + b'` of the array. -/
theorem iblk0_apply (c : Dev nD) (t : Fin cfg0.N) (b' : Fin 2) (b : Fin 8) (r : Fin 2048) (k : Fin 512)
    (hb : b.val = win0_2.index t (0 : Fin 3) * 2 + b'.val) :
    (iblk m c 0 t : Vec Ideal S2x2048x512 .f32) (ix3 b' r k) = (V m c main_arg1 : S8x2048x512.Idx → EReal) (ix3 b r k) := by
  obtain ⟨e0, e1, e2, -⟩ := idx_facts t
  show V m c main_arg1 (((cfg0.win 0).blk t).view.emb (ix3 b' r k)) = V m c main_arg1 (ix3 b r k)
  refine congrArg _ (funext fun a => Fin.ext ?_)
  match a with
  | ⟨0, _⟩ => show win0_0.index t (0 : Fin 3) * 2 + 1 * b'.val = b.val; omega
  | ⟨1, _⟩ => show win0_0.index t (1 : Fin 3) * 2048 + 1 * r.val = r.val; omega
  | ⟨2, _⟩ => show win0_0.index t (2 : Fin 3) * 512 + 1 * k.val = k.val; omega

/-- The block of `h_text` at point `t` likewise. -/
theorem iblk1_apply (c : Dev nD) (t : Fin cfg0.N) (b' : Fin 2) (b : Fin 8) (k : Fin 512) (q : Fin 256)
    (hb : b.val = win0_2.index t (0 : Fin 3) * 2 + b'.val) :
    (iblk m c 1 t : Vec Ideal S2x512x256 .f32) (ix3 b' k q) = (V m c main_arg0 : S8x512x256.Idx → EReal) (ix3 b k q) := by
  obtain ⟨-, -, -, e3, e4, e5, -⟩ := idx_facts t
  show V m c main_arg0 (((cfg0.win 1).blk t).view.emb (ix3 b' k q)) = V m c main_arg0 (ix3 b k q)
  refine congrArg _ (funext fun a => Fin.ext ?_)
  match a with
  | ⟨0, _⟩ => show win0_1.index t (0 : Fin 3) * 2 + 1 * b'.val = b.val; omega
  | ⟨1, _⟩ => show win0_1.index t (1 : Fin 3) * 512 + 1 * k.val = k.val; omega
  | ⟨2, _⟩ => show win0_1.index t (2 : Fin 3) * 256 + 1 * q.val = q.val; omega

/-- A stretch of two batch entries of the product: if `A'` and `H'` hold batch entries `2o` and `2o + 1` of `A` and `H`, the
    product of `A'` and `H'` at `j` is the product of `A` and `H` at the index `i` with the batch coordinate moved by `2o`. -/
theorem bmm_of_stretch (A : S8x2048x512.Idx → EReal) (H : S8x512x256.Idx → EReal) (A' : S2x2048x512.Idx → EReal)
    (H' : S2x512x256.Idx → EReal) (o : Nat)
    (hA : ∀ (b' : Fin 2) (b : Fin 8) (r : Fin 2048) (k : Fin 512), b.val = o * 2 + b'.val → A' (ix3 b' r k) = A (ix3 b r k))
    (hH : ∀ (b' : Fin 2) (b : Fin 8) (k : Fin 512) (q : Fin 256), b.val = o * 2 + b'.val → H' (ix3 b' k q) = H (ix3 b k q))
    (j : S2x2048x256.Idx) (i : S8x2048x256.Idx) (h0 : (i 0).val = o * 2 + (j 0).val) (h1 : (i 1).val = (j 1).val)
    (h2 : (i 2).val = (j 2).val) :
    bmm (B := 2) (R := 2048) (K := 512) (C := 256) A' H' j = bmm (B := 8) (R := 2048) (K := 512) (C := 256) A H i := by
  obtain ⟨b', r', q', rfl⟩ : ∃ (b' : Fin 2) (r' : Fin 2048) (q' : Fin 256), j = ix3 b' r' q' := ⟨j 0, j 1, j 2, eq_ix3 j⟩
  obtain ⟨b, r, q, rfl⟩ : ∃ (b : Fin 8) (r : Fin 2048) (q : Fin 256), i = ix3 b r q := ⟨i 0, i 1, i 2, eq_ix3 i⟩
  obtain rfl : r = r' := Fin.ext h1
  obtain rfl : q = q' := Fin.ext h2
  rw [bmm_ix3, bmm_ix3]
  exact entry_of_stretch A H A' H' b' b (fun r k => hA b' b r k h0) (fun k q => hH b' b k q h0) r q

/-- WHAT POINT `t` WRITES BACK is block `t` of the batched product of the two argument arrays. -/
theorem flushed_eq (c : Dev nD) (t : Fin cfg0.N) :
    (dats m 0 c).flushed 2 t = ((cfg0.win 2).blk t).view.read (Elt Ideal)
      (bmm (B := 8) (R := 2048) (K := 512) (C := 256) (V m c main_arg1) (V m c main_arg0)) := by
  rw [flushed2, out_eq_bmm (iblk m c 0 t) (iblk m c 1 t)]
  obtain ⟨-, -, -, -, -, -, e6, e7, -⟩ := idx_facts t
  funext j
  show bmm (B := 2) (R := 2048) (K := 512) (C := 256) (iblk m c 0 t) (iblk m c 1 t) j
    = bmm (B := 8) (R := 2048) (K := 512) (C := 256) (V m c main_arg1) (V m c main_arg0) (((cfg0.win 2).blk t).view.emb j)
  refine bmm_of_stretch _ _ _ _ (win0_2.index t (0 : Fin 3)) (fun b' b r k hb => iblk0_apply m c t b' b r k hb)
    (fun b' b k q hb => iblk1_apply m c t b' b k q hb) j _ ?_ ?_ ?_
  · show win0_2.index t (0 : Fin 3) * 2 + 1 * (j 0).val = win0_2.index t (0 : Fin 3) * 2 + (j 0).val; omega
  · show win0_2.index t (1 : Fin 3) * 2048 + 1 * (j 1).val = (j 1).val; omega
  · show win0_2.index t (2 : Fin 3) * 256 + 1 * (j 2).val = (j 2).val; omega

/-- An index of the result array is in point `t`'s block iff each coordinate is in the block's range on its axis. -/
theorem mem_blk (t : Fin cfg0.N) (i : S8x2048x256.Idx) :
    i ∈ ((cfg0.win 2).blk t).view.set ↔ ∀ a : Fin 3, win0_2.index t a * S2x2048x256.size a ≤ (i a).val
      ∧ (i a).val < win0_2.index t a * S2x2048x256.size a + S2x2048x256.size a := by
  show i ∈ ((View.whole main_v0).slice (win0_2.rect t)).set ↔ _
  rw [View.set_slice_whole, Rect.mem_set_unit]
  exact Iff.rfl

/-- Every index of the result array is in the block of the point that holds its batch entry. -/
theorem cover (i : S8x2048x256.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 256 ≤ (i 2).val ∧ (i 2).val < win0_2.index t (2 : Fin 3) * 256 + 256; omega

/-- THE RESULT ARRAY after the run: the batched product of the two argument arrays. -/
theorem final (c : Dev nD) : (dats m 0 c).arrAt 2 cfg0.N
    = bmm (B := 8) (R := 2048) (K := 512) (C := 256) (m ((c : Thread nD τ).loc main_arg1)) (m ((c : Thread nD τ).loc main_arg0)) :=
  (dats m 0 c).arrAt_eq_of_cover 2 (bmm (B := 8) (R := 2048) (K := 512) (C := 256) (V m c main_arg1) (V m c main_arg0))
    (fun t _ => flushed_eq m c t) cover

/-- The kernel's run, read: the result array at the batched product of the arguments, the arguments unchanged. -/
theorem run : θ_run defs (onTc (τ := τ) (main (F := Ideal))) ⟨m, fun _ => 0, ρ⟩ fun r => ∀ c : Dev nD,
      r.2.mem ((c : Thread nD τ).loc main_v0)
        = bmm (B := 8) (R := 2048) (K := 512) (C := 256) (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Product

end
-- ==== Proof.Reference.lean ====
/-
  The reference is the batched product.

  The reference program is one `dot_general` with the batch axis 0 of both operands kept and the left operand's axis 2
  contracted with the right operand's axis 1. Read at an index `(b, r, c)` on the extended reals it is the sum over `k` of
  `alignment (b, r, k) * h_text (b, k, c)`: entry `(b, r, c)` of the batched product.
-/
import proofs.«148634_g20229295964416_cont_8to1_1184_10_alg».proof.Proof.Gen.ReferenceIdeal.Read
import proofs.«148634_g20229295964416_cont_8to1_1184_10_alg».proof.Proof.BatchedProduct

noncomputable section

open scoped BigOperators

namespace Cert.ReferenceIdeal.Product

open Cert.ReferenceIdeal Cert.ReferenceIdeal.Read Idealize.ShloMosaic Idealize.ShloMosaic.ValueIdx Cert.BatchedProduct

/-- The reference's result, as a function of its two argument arrays, is their batched product. -/
theorem reference_eq_bmm (H : (⟨S8x512x256, .f32⟩ : BufTy).Contents (Elt Ideal)) (A : (⟨S8x2048x512, .f32⟩ : BufTy).Contents (Elt Ideal)) :
    val_main_v0 (F := Ideal) H A = bmm (B := 8) (R := 2048) (K := 512) (C := 256) A H := by
  funext i
  rw [val_main_v0_apply]
  show _ = entry (B := 8) (R := 2048) (K := 512) (C := 256) A H (i 0) (i 1) (i 2)
  unfold entry
  refine Finset.sum_congr rfl fun k _ => ?_
  have el : lidx_main_v0 i k = ix3 (i 0) (i 1) k := funext fun a => by
    match a with
    | ⟨0, _⟩ => rfl
    | ⟨1, _⟩ => rfl
    | ⟨2, _⟩ => rfl
  have er : ridx_main_v0 i k = ix3 (i 0) k (i 2) := funext fun a => by
    match a with
    | ⟨0, _⟩ => rfl
    | ⟨1, _⟩ => rfl
    | ⟨2, _⟩ => rfl
  rw [el, er]
  rfl

end Cert.ReferenceIdeal.Product

end
-- ==== Proof.lean ====
/-
  The kernel computes `bmm(alignment, h_text)`, the product of eight `2048 × 512` matrices with eight `512 × 256` ones, two
  batch entries per grid point, each product on the matrix unit into a zero accumulator after narrowing both operands to
  bf16. The reference is one batched `dot_general`. On the extended reals a change of float format is the identity and both
  products are the plain sum over the contraction coordinate, so both programs end with the same array,
  `out (b, r, c) = ∑ k, alignment (b, r, k) * h_text (b, k, c)` (`Cert.BatchedProduct.bmm`): the kernel because each grid point
  writes its two batch entries of that array and the four points cover the batch (`Cert.KernelIdeal.Product.run`), the
  reference because that is what its one operation is at an index (`Cert.ReferenceIdeal.Product.reference_eq_bmm`). No
  law of arithmetic beyond reading the two sums term by term is used, so finiteness of the inputs is never opened. The
  idealization rewrote no operation, so `preserves` is `True`; the three frames are the generated frame runs.
-/
import proofs.«148634_g20229295964416_cont_8to1_1184_10_alg».proof.Defs
import proofs.«148634_g20229295964416_cont_8to1_1184_10_alg».proof.Proof.Gen.Kernel
import proofs.«148634_g20229295964416_cont_8to1_1184_10_alg».proof.Proof.Gen.Kernel.Skeleton
import proofs.«148634_g20229295964416_cont_8to1_1184_10_alg».proof.Proof.Gen.Kernel.Launch
import proofs.«148634_g20229295964416_cont_8to1_1184_10_alg».proof.Proof.Gen.Kernel.Points
import proofs.«148634_g20229295964416_cont_8to1_1184_10_alg».proof.Proof.Gen.Kernel.Frame
import proofs.«148634_g20229295964416_cont_8to1_1184_10_alg».proof.Proof.Gen.KernelIdeal
import proofs.«148634_g20229295964416_cont_8to1_1184_10_alg».proof.Proof.Gen.KernelIdeal.Skeleton
import proofs.«148634_g20229295964416_cont_8to1_1184_10_alg».proof.Proof.Gen.KernelIdeal.Launch
import proofs.«148634_g20229295964416_cont_8to1_1184_10_alg».proof.Proof.Gen.KernelIdeal.Points
import proofs.«148634_g20229295964416_cont_8to1_1184_10_alg».proof.Proof.Gen.KernelIdeal.Frame
import proofs.«148634_g20229295964416_cont_8to1_1184_10_alg».proof.Proof.Gen.ReferenceIdeal
import proofs.«148634_g20229295964416_cont_8to1_1184_10_alg».proof.Proof.Gen.Pre_finite_inputs
import proofs.«148634_g20229295964416_cont_8to1_1184_10_alg».proof.Proof.Gen.KernelIdeal.Value
import proofs.«148634_g20229295964416_cont_8to1_1184_10_alg».proof.Proof.Gen.ReferenceIdeal.Run
import proofs.«148634_g20229295964416_cont_8to1_1184_10_alg».proof.Proof.Gen.ReferenceIdeal.Read
import proofs.«148634_g20229295964416_cont_8to1_1184_10_alg».proof.Proof.Blocks
import proofs.«148634_g20229295964416_cont_8to1_1184_10_alg».proof.Proof.Reference
import Idealize.ShloMosaic.Adequacy
import Idealize.ShloMosaic.Init

noncomputable section

namespace Cert.Proof

open Idealize.ShloMosaic Idealize.ShloMosaic.TcCoe Idealize.SL.Sem Cert.BatchedProduct

/-- The kernel as printed runs and leaves its arguments alone: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the batched product of the two arguments: the kernel block by block, the reference by its one
    operation read at an index; from memories that agree on the arguments these are the same array. -/
theorem algebraic : Cert.algebraic_KernelIdeal_ReferenceIdeal := by
  intro m ρ m' ρ' _ hagree
  refine ⟨fun c => bmm (B := 8) (R := 2048) (K := 512) (C := 256)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.Product.reference_eq_bmm, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
